-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x128 : Shape := ⟨2, ![800000, 128]⟩
abbrev S50000x64 : Shape := ⟨2, ![50000, 64]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S800000x128 : S_.BroadcastsInDim S800000x128 (![] : Fin 0 → Fin S800000x128.rank)
  reducesTo_S800000x128_S_d0_1 : S800000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S800000x128 .f32) (main_arg1 : FVec F S50000x64 .f32) (main_arg2 : IVec S800000 32) (main_arg3 : IVec S800000 32) (main_arg4 : FVec F S128x64 .f32) (main_arg5 : FVec F S64 .f32) (main_arg6 : FVec F S64x64 .f32) (main_arg7 : FVec F S64 .f32) : IVec S_ 1 :=
  let main_v0 : FVec F S800000x128 .f32 := Host.absf main_arg0
  let main_cst : FVec F S_ .f32 := constant S_ .f32 0x7F800000#32
  let main_v1 : FVec F S800000x128 .f32 := broadcastInDim S800000x128 ![] bcast_S_S800000x128 main_cst
  let main_v2 : IVec S800000x128 1 := cmpf .olt main_v0 main_v1
  let main_c : IVec S_ 1 := constantI S_ 1 1#1
  let main_v3 : IVec S_ 1 := (fun x v => Host.reduce IntOp.andi x v reducesTo_S800000x128_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S800000x128 : Shape := ⟨2, ![800000, 128]⟩
abbrev S50000x64 : Shape := ⟨2, ![50000, 64]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S800000x64 : Shape := ⟨2, ![800000, 64]⟩
abbrev S8000x128 : Shape := ⟨2, ![8000, 128]⟩
abbrev S8000x64 : Shape := ⟨2, ![8000, 64]⟩
abbrev S_ : Shape := ⟨0, ![]⟩
abbrev S800000x1 : Shape := ⟨2, ![800000, 1]⟩

abbrev nBuf : Space → Nat
  | .hbm => 25
  | .vmem => 8
  | .smem => 0
  | _ => 0

abbrev bufTy : (tb : Table) → Fin (tcTables nBuf tb) → BufTy
  | .hbm, ⟨0, _⟩ => ⟨S800000x128, .f32⟩
  | .hbm, ⟨1, _⟩ => ⟨S50000x64, .f32⟩
  | .hbm, ⟨2, _⟩ => ⟨S800000, .i32⟩
  | .hbm, ⟨3, _⟩ => ⟨S800000, .i32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x64, .f32⟩
  | .hbm, ⟨9, _⟩ => ⟨S1x64, .f32⟩
  | .hbm, ⟨10, _⟩ => ⟨S800000x64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .local _ .vmem, ⟨0, _⟩ => ⟨S8000x128, .f32⟩
  | .local _ .vmem, ⟨1, _⟩ => ⟨S8000x128, .f32⟩
  | .local _ .vmem, ⟨2, _⟩ => ⟨S128x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S8000x64, .f32⟩
  | .local _ .vmem, ⟨7, _⟩ => ⟨S8000x64, .f32⟩
  | _, _ => ⟨S800000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64_S1x64 : S64.ShapeCasts S1x64
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  inb_S8000x64_S8000x64_0_0 : ∀ a, (![0, 0] : Fin 2 → Nat) a + S8000x64.size a ≤ S8000x64.size a
  h_S8000x64 : 0 < S8000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  dot_S8000x128_S128x64_S8000x64_1_0_0_1_n_n_wf : DotDims.WF S8000x128 S128x64 S8000x64 [1] [0] [0] [1] [] []
  dot_S8000x64_S64x64_S8000x64_1_0_0_1_n_n_wf : DotDims.WF S8000x64 S64x64 S8000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S800000x64.size a
  hwx0_5 : ∀ i : grid0.Coords, EltTy.bits .f32 = 32 ∨ (Rect.block (s := S800000x64) S8000x64.size (cc0_transform_5 i) (hinb0_5 i)).WholeWords (EltTy.packing .f32)

variable [Facts₀]

def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S800000x128 : Shape := ⟨2, ![800000, 128]⟩
abbrev S50000x64 : Shape := ⟨2, ![50000, 64]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S800000x64 : Shape := ⟨2, ![800000, 64]⟩
abbrev S1x64 : Shape := ⟨2, ![1, 64]⟩
abbrev S_ : Shape := ⟨0, ![]⟩
abbrev S800000x1 : Shape := ⟨2, ![800000, 1]⟩

abbrev nBuf : Space → Nat
  | .hbm => 57
  | .vmem => 0
  | .smem => 0
  | _ => 0

abbrev bufTy : (tb : Table) → Fin (tcTables nBuf tb) → BufTy
  | .hbm, ⟨0, _⟩ => ⟨S800000x128, .f32⟩
  | .hbm, ⟨1, _⟩ => ⟨S50000x64, .f32⟩
  | .hbm, ⟨2, _⟩ => ⟨S800000, .i32⟩
  | .hbm, ⟨3, _⟩ => ⟨S800000, .i32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S800000x64, .f32⟩
  | .hbm, ⟨9, _⟩ => ⟨S1x64, .f32⟩
  | .hbm, ⟨10, _⟩ => ⟨S800000x64, .f32⟩
  | .hbm, ⟨11, _⟩ => ⟨S800000x64, .f32⟩
  | .hbm, ⟨12, _⟩ => ⟨S_, .f32⟩
  | .hbm, ⟨13, _⟩ => ⟨S800000x64, .f32⟩
  | .hbm, ⟨14, _⟩ => ⟨S800000x64, .f32⟩
  | .hbm, ⟨15, _⟩ => ⟨S_, .f32⟩
  | .hbm, ⟨16, _⟩ => ⟨S800000x64, .f32⟩
  | .hbm, ⟨17, _⟩ => ⟨S800000x64, .i1⟩
  | .hbm, ⟨18, _⟩ => ⟨S_, .f32⟩
  | .hbm, ⟨19, _⟩ => ⟨S800000x64, .f32⟩
  | .hbm, ⟨20, _⟩ => ⟨S800000x64, .f32⟩
  | .hbm, ⟨21, _⟩ => ⟨S_, .f32⟩
  | .hbm, ⟨22, _⟩ => ⟨S800000x64, .f32⟩
  | .hbm, ⟨23, _⟩ => ⟨S800000x64, .f32⟩
  | .hbm, ⟨24, _⟩ => ⟨S800000x64, .f32⟩
  | .hbm, ⟨25, _⟩ => ⟨S800000x64, .f32⟩
  | .hbm, ⟨26, _⟩ => ⟨S800000x64, .i1⟩
  | .hbm, ⟨27, _⟩ => ⟨S800000x64, .f32⟩
  | .hbm, ⟨28, _⟩ => ⟨S800000x64, .f32⟩
  | .hbm, ⟨29, _⟩ => ⟨S800000x64, .f32⟩
  | .hbm, ⟨30, _⟩ => ⟨S800000x64, .f32⟩
  | .hbm, ⟨31, _⟩ => ⟨S800000x64, .f32⟩
  | .hbm, ⟨32, _⟩ => ⟨S800000x64, .f32⟩
  | .hbm, ⟨33, _⟩ => ⟨S800000x64, .f32⟩
  | .hbm, ⟨34, _⟩ => ⟨S800000x64, .f32⟩
  | .hbm, ⟨35, _⟩ => ⟨S_, .f32⟩
  | .hbm, ⟨36, _⟩ => ⟨S800000x64, .f32⟩
  | .hbm, ⟨37, _⟩ => ⟨S800000x64, .f32⟩
  | .hbm, ⟨38, _⟩ => ⟨S800000x64, .f32⟩
  | .hbm, ⟨39, _⟩ => ⟨S800000x64, .f32⟩
  | .hbm, ⟨40, _⟩ => ⟨S1x64, .f32⟩
  | .hbm, ⟨41, _⟩ => ⟨S800000x64, .f32⟩
  | .hbm, ⟨42, _⟩ => ⟨S800000x64, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x64, .f32⟩
  | .hbm, ⟨52, _⟩ => ⟨S800000x64, .f32⟩
  | .hbm, ⟨53, _⟩ => ⟨S_, .f32⟩
  | .hbm, ⟨54, _⟩ => ⟨S50000x64, .f32⟩
  | .hbm, ⟨55, _⟩ => ⟨S800000x1, .i32⟩
  | .hbm, ⟨56, _⟩ => ⟨S50000x64, .f32⟩
  | _, _ => ⟨S800000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v10 : Ref sig .tc := ⟨.hbm, 34, rfl⟩
abbrev main_cst_2 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c : Ref sig .tc := ⟨.hbm, 43, rfl⟩
abbrev main_v18 : Ref sig .tc := ⟨.hbm, 44, rfl⟩
abbrev main_v19 : Ref sig .tc := ⟨.hbm, 45, rfl⟩
abbrev main_c_3 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_4 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  dot_S800000x128_S128x64_S800000x64_1_0_0_1_n_n_wf : DotDims.WF S800000x128 S128x64 S800000x64 [1] [0] [0] [1] [] []
  dot_S800000x64_S64x64_S800000x64_1_0_0_1_n_n_wf : DotDims.WF S800000x64 S64x64 S800000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.FilterSpec.lean ====
/-
  The edge filter of a continuous-filter convolution, as ONE function of the argument arrays, index by index, on the
  extended reals.

  For an edge `r` (800000 of them) with radial features `rbf[r, ·]` (128 of them) the filter has 64 channels:

      z[r, k]  =  (Σ_j rbf[r, j] · W1[j, k]) + b1[k]                              a dense layer,        k < 64
      a[r, k]  =  ssp(z[r, k])                                                   a shifted softplus
      h[r, q]  =  (Σ_k a[r, k] · W2[k, q]) + b2[q]                               a second dense layer,  q < 64

  where `ssp(z) = z` when `z / 2 > 14` and `2 · softplus(z / 2)` otherwise, and `softplus(y) = log(1 + e^y)` is spelled
  the overflow-free way, `max(y, 0) + log1p(exp(−|y − 0|))`, behind a guard `y − 0 ≠ y − 0` that would pick `y + 0`:
  the guard asks whether `y − 0` is a NaN, and on the extended reals nothing differs from itself, so it never fires.
  The four float literals (1/2, 14, 0, 2) are kept as their bit patterns: both programs print the same words, so
  their values are never needed — except that the zero word is 0, used once below.
-/
import Idealize.ShloMosaic.PureOps.Ideal
import Idealize.ShloMosaic.PureOps.Ideal.Laws
import Idealize.ShloMosaic.Lib.ValueIdx

noncomputable section

namespace Cert.EdgeFilter

open Idealize.ShloMosaic Idealize.ShloMosaic.ValueIdx
open scoped BigOperators

/-- The float words the activation is written with: 1/2, 14, 0 and 2 in binary32. -/
abbrev wHalf : EReal := Ideal.ofBits .f32 0x3F000000#32
abbrev wFourteen : EReal := Ideal.ofBits .f32 0x41600000#32
abbrev wZero : EReal := Ideal.ofBits .f32 0x00000000#32
abbrev wTwo : EReal := Ideal.ofBits .f32 0x40000000#32

/-- `log(1 + e^y)` in its overflow-free spelling, with the (never firing) guard in front. -/
def softplus (y : EReal) : EReal :=
  Scalar.select (Ideal.cmp .une (y - wZero) (y - wZero)) (y + wZero)
    (max y wZero + Ideal.log1p (Ideal.exp (-(max (y - wZero) (-(y - wZero))))))

/-- The shifted softplus with slope parameter 1/2 and threshold 14: the identity past the threshold. -/
def ssp (z : EReal) : EReal :=
  Scalar.select (Ideal.cmp .ogt (wHalf * z) wFourteen) z (wTwo * softplus (wHalf * z))

/-- The same softplus when the negation of `|y − 0|` is written as a subtraction from the zero word, and the guard as
    the ordered "not equal" (on the extended reals the ordered and unordered comparisons are one). -/
theorem softplus_sub_form (y : EReal) :
    Scalar.select (Ideal.cmp .one (y - wZero) (y - wZero)) (y + wZero)
      (max y wZero + Ideal.log1p (Ideal.exp (wZero - (max (y - wZero) (-(y - wZero))))))
    = softplus y := by
  unfold softplus
  rw [show wZero - max (y - wZero) (-(y - wZero)) = -(max (y - wZero) (-(y - wZero))) by
    rw [show wZero = (0 : EReal) from Ideal.ofBits_zero_f32, zero_sub]]
  rfl

/-- The first dense layer at edge `r`, channel `k`. -/
def dense1 (rbf : FVec Ideal ⟨2, ![800000, 128]⟩ .f32) (W1 : FVec Ideal ⟨2, ![128, 64]⟩ .f32) (b1 : FVec Ideal ⟨1, ![64]⟩ .f32)
    (r : Fin 800000) (k : Fin 64) : EReal :=
  (∑ j : Fin 128, rbf (ix2 r j) * W1 (ix2 j k)) + b1 (ix1 k)

/-- The edge filter `h`: the second dense layer over the activated first. -/
def filter (rbf : FVec Ideal ⟨2, ![800000, 128]⟩ .f32) (W1 : FVec Ideal ⟨2, ![128, 64]⟩ .f32) (b1 : FVec Ideal ⟨1, ![64]⟩ .f32)
    (W2 : FVec Ideal ⟨2, ![64, 64]⟩ .f32) (b2 : FVec Ideal ⟨1, ![64]⟩ .f32) : FVec Ideal ⟨2, ![800000, 64]⟩ .f32 := fun i =>
  (∑ k : Fin 64, ssp (dense1 rbf W1 b1 (i 0) k) * W2 (ix2 k (i 1))) + b2 (ix1 (i 1))

end Cert.EdgeFilter

end
-- ==== Proof.BlockPayload.lean ====
/-
  What the kernel body computes on one block of 8000 edges, read at an index.

  The body loads a block `x0` of radial features (8000 × 128), the two weight matrices `x1` (128 × 64), `x3` (64 × 64)
  and the two bias rows `x2`, `x4` (1 × 64), and stores

      (ssp(x0 · x1 + x2)) · x3 + x4                                             (8000 × 64)

  where `·` is a matrix product into a zero accumulator — on the extended reals a plain sum over the contracted axis,
  the narrowing of its operands to 16 bits being the identity there — the bias rows are repeated along the rows, and the
  shifted softplus acts element by element. So at row `p`, column `q` of the block the stored value is the filter's formula
  with the block's rows in place of the edges. The body spells the softplus's `−|y|` as `0 − |y|` and its guard with the
  ordered comparison; `softplus_sub_form` says that is the same function.
-/
import proofs.«101522_j34093450396365_1_alg».proof.Proof.Gen.KernelIdeal.Skeleton
import proofs.«101522_j34093450396365_1_alg».proof.Proof.FilterSpec
import Idealize.ShloMosaic.Lib.ValueIdx
import Idealize.ShloMosaic.Lib.Pipeline.Value
import Idealize.ShloMosaic.PureOps.Ideal.Laws

noncomputable section

namespace Cert.EdgeFilter.Block

open Cert.KernelIdeal Cert.KernelIdeal.Gen
open Idealize.ShloMosaic Idealize.ShloMosaic.ValueIdx
open scoped BigOperators

/-! ## The two matrix products at an index -/

theorem lhs1_0 (i : S8000x64.Idx) (q : dot_S8000x128_S128x64_S8000x64_1_0_0_1_n_n.contr.Idx) : (dot_S8000x128_S128x64_S8000x64_1_0_0_1_n_n.lhsIdx i q 0).val = (i 0).val := by
  unfold DotDims.lhsIdx
  rw [dif_neg (show ¬(0 : Fin S8000x128.rank) ∈ dot_S8000x128_S128x64_S8000x64_1_0_0_1_n_n.lhsBatch by decide), dif_pos (show (0 : Fin S8000x128.rank) ∈ dot_S8000x128_S128x64_S8000x64_1_0_0_1_n_n.lhsNonContracting by decide)]
  rfl
theorem lhs1_1 (i : S8000x64.Idx) (q : dot_S8000x128_S128x64_S8000x64_1_0_0_1_n_n.contr.Idx) : (dot_S8000x128_S128x64_S8000x64_1_0_0_1_n_n.lhsIdx i q 1).val = (q ⟨0, by decide⟩).val :=
  dot_S8000x128_S128x64_S8000x64_1_0_0_1_n_n.lhsIdx_val_of_single rfl i q
theorem rhs1_0 (i : S8000x64.Idx) (q : dot_S8000x128_S128x64_S8000x64_1_0_0_1_n_n.contr.Idx) : (dot_S8000x128_S128x64_S8000x64_1_0_0_1_n_n.rhsIdx i q 0).val = (q ⟨0, by decide⟩).val :=
  dot_S8000x128_S128x64_S8000x64_1_0_0_1_n_n.rhsIdx_val_of_single rfl i q
theorem rhs1_1 (i : S8000x64.Idx) (q : dot_S8000x128_S128x64_S8000x64_1_0_0_1_n_n.contr.Idx) : (dot_S8000x128_S128x64_S8000x64_1_0_0_1_n_n.rhsIdx i q 1).val = (i 1).val := by
  unfold DotDims.rhsIdx
  rw [dif_neg (show ¬(1 : Fin S128x64.rank) ∈ dot_S8000x128_S128x64_S8000x64_1_0_0_1_n_n.rhsBatch by decide), dif_pos (show (1 : Fin S128x64.rank) ∈ dot_S8000x128_S128x64_S8000x64_1_0_0_1_n_n.rhsNonContracting by decide)]
  rfl

/-- The first product: a block of radial features times the first weight matrix, as a sum over the 128 features. -/
theorem matmul1_apply (L : FVec Ideal S8000x128 .bf16) (R : FVec Ideal S128x64 .bf16) (p : Fin 8000) (q : Fin 64) :
    FloatOps.matmul dot_S8000x128_S128x64_S8000x64_1_0_0_1_n_n none L R (constant (F := Ideal) S8000x64 .f32 0x00000000#32) (ix2 p q)
      = ∑ k : Fin 128, L (ix2 p k) * R (ix2 k q) := by
  rw [Ideal.matmul_constant_zero_apply, ← Equiv.sum_comp (contrEquiv1 dot_S8000x128_S128x64_S8000x64_1_0_0_1_n_n 128 rfl rfl).symm]
  refine Finset.sum_congr rfl fun k _ => ?_
  have hk := contrEquiv1_symm_val dot_S8000x128_S128x64_S8000x64_1_0_0_1_n_n 128 rfl rfl k
  have el : dot_S8000x128_S128x64_S8000x64_1_0_0_1_n_n.lhsIdx (ix2 p q) ((contrEquiv1 dot_S8000x128_S128x64_S8000x64_1_0_0_1_n_n 128 rfl rfl).symm k) = ix2 p k := funext fun a => Fin.ext (by
    match a with
    | ⟨0, _⟩ => exact lhs1_0 _ _
    | ⟨1, _⟩ => exact (lhs1_1 _ _).trans hk)
  have er : dot_S8000x128_S128x64_S8000x64_1_0_0_1_n_n.rhsIdx (ix2 p q) ((contrEquiv1 dot_S8000x128_S128x64_S8000x64_1_0_0_1_n_n 128 rfl rfl).symm k) = ix2 k q := funext fun a => Fin.ext (by
    match a with
    | ⟨0, _⟩ => exact (rhs1_0 _ _).trans hk
    | ⟨1, _⟩ => exact rhs1_1 _ _)
  rw [el, er]

theorem lhs2_0 (i : S8000x64.Idx) (q : dot_S8000x64_S64x64_S8000x64_1_0_0_1_n_n.contr.Idx) : (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs2_1 (i : S8000x64.Idx) (q : dot_S8000x64_S64x64_S8000x64_1_0_0_1_n_n.contr.Idx) : (dot_S8000x64_S64x64_S8000x64_1_0_0_1_n_n.lhsIdx i q 1).val = (q ⟨0, by decide⟩).val :=
  dot_S8000x64_S64x64_S8000x64_1_0_0_1_n_n.lhsIdx_val_of_single rfl i q
theorem rhs2_0 (i : S8000x64.Idx) (q : dot_S8000x64_S64x64_S8000x64_1_0_0_1_n_n.contr.Idx) : (dot_S8000x64_S64x64_S8000x64_1_0_0_1_n_n.rhsIdx i q 0).val = (q ⟨0, by decide⟩).val :=
  dot_S8000x64_S64x64_S8000x64_1_0_0_1_n_n.rhsIdx_val_of_single rfl i q
theorem rhs2_1 (i : S8000x64.Idx) (q : dot_S8000x64_S64x64_S8000x64_1_0_0_1_n_n.contr.Idx) : (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- The second product: the activated block times the second weight matrix, as a sum over the 64 channels. -/
theorem matmul2_apply (L : FVec Ideal S8000x64 .bf16) (R : FVec Ideal S64x64 .bf16) (p : Fin 8000) (q : Fin 64) :
    FloatOps.matmul dot_S8000x64_S64x64_S8000x64_1_0_0_1_n_n none L R (constant (F := Ideal) S8000x64 .f32 0x00000000#32) (ix2 p q)
      = ∑ k : Fin 64, L (ix2 p k) * R (ix2 k q) := by
  rw [Ideal.matmul_constant_zero_apply, ← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 p q) ((contrEquiv1 dot_S8000x64_S64x64_S8000x64_1_0_0_1_n_n 64 rfl rfl).symm k) = ix2 p k := funext fun a => Fin.ext (by
    match a with
    | ⟨0, _⟩ => exact lhs2_0 _ _
    | ⟨1, _⟩ => exact (lhs2_1 _ _).trans hk)
  have er : dot_S8000x64_S64x64_S8000x64_1_0_0_1_n_n.rhsIdx (ix2 p q) ((contrEquiv1 dot_S8000x64_S64x64_S8000x64_1_0_0_1_n_n 64 rfl rfl).symm k) = ix2 k q := funext fun a => Fin.ext (by
    match a with
    | ⟨0, _⟩ => exact (rhs2_0 _ _).trans hk
    | ⟨1, _⟩ => exact rhs2_1 _ _)
  rw [el, er]

/-! ## A bias row repeated along the rows -/

/-- The (identity) cast of a 1 × 64 row, broadcast to 8000 × 64, read at row `p`, column `k`, is the row's entry `k`. -/
theorem bias_apply (x : Vec Ideal S1x64 .f32) (p : Fin 8000) (k : Fin 64) :
    broadcastTo S8000x64 (shapeCast S1x64 x Facts₀.shapeCasts_S1x64_S1x64) Facts₀.broadcasts_S1x64_S8000x64 (ix2 p k) = x (ix2 (0 : Fin 1) k) := by
  rw [shapeCast_self]
  exact broadcastTo_apply x Facts₀.broadcasts_S1x64_S8000x64 (ix2 p k) (ix2 (0 : Fin 1) k) (fun a => by
    match a with
    | ⟨0, _⟩ => show (0 : Nat) = if (1 : Nat) = 1 then 0 else _; rw [if_pos rfl]
    | ⟨1, _⟩ => show k.val = if (64 : Nat) = 1 then 0 else k.val; rw [if_neg (by decide)])

/-! ## The body's value in two layers -/

/-- The first dense layer on a block: product plus bias row. -/
def layer1 (x0 : Vec Ideal S8000x128 .f32) (x1 : Vec Ideal S128x64 .f32) (x2 : Vec Ideal S1x64 .f32) : FVec Ideal S8000x64 .f32 :=
  addf (matmul dot_S8000x128_S128x64_S8000x64_1_0_0_1_n_n none (truncf .bf16 x0 Facts₀.bitsLt_bf16_f32) (truncf .bf16 x1 Facts₀.bitsLt_bf16_f32) (constant S8000x64 .f32 0x00000000#32))
    (broadcastTo S8000x64 (shapeCast S1x64 x2 Facts₀.shapeCasts_S1x64_S1x64) Facts₀.broadcasts_S1x64_S8000x64)

theorem layer1_apply (x0 : Vec Ideal S8000x128 .f32) (x1 : Vec Ideal S128x64 .f32) (x2 : Vec Ideal S1x64 .f32) (p : Fin 8000) (k : Fin 64) :
    layer1 x0 x1 x2 (ix2 p k) = (∑ j : Fin 128, x0 (ix2 p j) * x1 (ix2 j k)) + x2 (ix2 (0 : Fin 1) k) := by
  show FloatOps.matmul dot_S8000x128_S128x64_S8000x64_1_0_0_1_n_n none (truncf .bf16 x0 Facts₀.bitsLt_bf16_f32) (truncf .bf16 x1 Facts₀.bitsLt_bf16_f32) (constant (F := Ideal) S8000x64 .f32 0x00000000#32) (ix2 p k)
    + broadcastTo S8000x64 (shapeCast S1x64 x2 Facts₀.shapeCasts_S1x64_S1x64) Facts₀.broadcasts_S1x64_S8000x64 (ix2 p k) = _
  rw [matmul1_apply, bias_apply]
  rfl

/-- The shifted softplus of one element, as the body spells it. -/
def sspBody (z : EReal) : EReal :=
  Scalar.select (Ideal.cmp .ogt (wHalf * z) wFourteen) z
    (wTwo * Scalar.select (Ideal.cmp .one (wHalf * z - wZero) (wHalf * z - wZero)) (wHalf * z + wZero)
      (max (wHalf * z) wZero + Ideal.log1p (Ideal.exp (wZero - max (wHalf * z - wZero) (-(wHalf * z - wZero))))))

theorem sspBody_eq (z : EReal) : sspBody z = ssp z := by
  unfold sspBody ssp
  rw [softplus_sub_form]

/-- The body's payload is the second layer over the activated first. -/
theorem payload_eq (x0 : Vec Ideal S8000x128 .f32) (x1 : Vec Ideal S128x64 .f32) (x2 : Vec Ideal S1x64 .f32) (x3 : Vec Ideal S64x64 .f32) (x4 : Vec Ideal S1x64 .f32) :
    k0_pay1 (F := Ideal) x0 x1 x2 x3 x4
      = addf (matmul (φ₁ := .bf16) dot_S8000x64_S64x64_S8000x64_1_0_0_1_n_n none (fun i => sspBody (layer1 x0 x1 x2 i)) (truncf .bf16 x3 Facts₀.bitsLt_bf16_f32) (constant S8000x64 .f32 0x00000000#32))
          (broadcastTo S8000x64 (shapeCast S1x64 x4 Facts₀.shapeCasts_S1x64_S1x64) Facts₀.broadcasts_S1x64_S8000x64) := rfl

/-- THE PAYLOAD AT AN INDEX: row `p`, column `q` of what the body stores, from the loaded blocks. -/
theorem payload_apply (x0 : Vec Ideal S8000x128 .f32) (x1 : Vec Ideal S128x64 .f32) (x2 : Vec Ideal S1x64 .f32) (x3 : Vec Ideal S64x64 .f32) (x4 : Vec Ideal S1x64 .f32)
    (p : Fin 8000) (q : Fin 64) :
    k0_pay1 (F := Ideal) x0 x1 x2 x3 x4 (ix2 p q)
      = (∑ k : Fin 64, ssp ((∑ j : Fin 128, x0 (ix2 p j) * x1 (ix2 j k)) + x2 (ix2 (0 : Fin 1) k)) * x3 (ix2 k q)) + x4 (ix2 (0 : Fin 1) q) := by
  rw [payload_eq]
  show FloatOps.matmul (φ₁ := .bf16) dot_S8000x64_S64x64_S8000x64_1_0_0_1_n_n none (fun i => sspBody (layer1 x0 x1 x2 i)) (truncf .bf16 x3 Facts₀.bitsLt_bf16_f32) (constant (F := Ideal) S8000x64 .f32 0x00000000#32) (ix2 p q)
    + broadcastTo S8000x64 (shapeCast S1x64 x4 Facts₀.shapeCasts_S1x64_S1x64) Facts₀.broadcasts_S1x64_S8000x64 (ix2 p q) = _
  rw [matmul2_apply, bias_apply]
  refine congrArg (· + x4 (ix2 (0 : Fin 1) q)) (Finset.sum_congr rfl fun k _ => ?_)
  show sspBody (layer1 x0 x1 x2 (ix2 p k)) * x3 (ix2 k q) = _
  rw [sspBody_eq, layer1_apply]

/-- The same at any index `y` of the block, through its two coordinates. -/
theorem payload_at (x0 : Vec Ideal S8000x128 .f32) (x1 : Vec Ideal S128x64 .f32) (x2 : Vec Ideal S1x64 .f32) (x3 : Vec Ideal S64x64 .f32) (x4 : Vec Ideal S1x64 .f32)
    (y : S8000x64.Idx) :
    k0_pay1 (F := Ideal) x0 x1 x2 x3 x4 y
      = (∑ k : Fin 64, ssp ((∑ j : Fin 128, x0 (ix2 (y 0) j) * x1 (ix2 j k)) + x2 (ix2 (0 : Fin 1) k)) * x3 (ix2 k (y 1))) + x4 (ix2 (0 : Fin 1) (y 1)) := by
  obtain ⟨p, q, rfl⟩ : ∃ (p : Fin 8000) (q : Fin 64), y = ix2 p q := ⟨y 0, y 1, eq_ix2 y⟩
  exact payload_apply x0 x1 x2 x3 x4 p q

end Cert.EdgeFilter.Block

end
-- ==== Proof.FilterArray.lean ====
/-
  The array the kernel's region leaves: the edge filter of the arguments, whole.

  The grid has 100 points; point `t` works on edges `8000·t … 8000·t + 7999`. Its block of radial features is rows
  `8000·t + p` of the argument, the weight matrices and the (reshaped) bias rows are the same whole arrays at every
  point, and it writes back rows `8000·t + p` of the output. The body's stored value at row `p`, column `q` of the block
  is the filter's formula with the block's rows for the edges, so what point `t` writes back is block `t` of the one
  whole-array function `filter`; every edge `r` lies in the block of point `r / 8000`, so the blocks cover the array
  and the array ends holding `filter` of the arguments.
-/
import proofs.«101522_j34093450396365_1_alg».proof.Proof.Gen.KernelIdeal.Frame
import proofs.«101522_j34093450396365_1_alg».proof.Proof.BlockPayload
import Idealize.ShloMosaic.Lib.StableHlo.Run
import Idealize.ShloMosaic.Lib.Pipeline.Value
import Idealize.ShloMosaic.Lib.ValueIdx

noncomputable section

namespace Cert.EdgeFilter.Array

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ)

theorem hz : (![0, 0] : Fin 2 → Nat) = fun _ => 0 := funext fun a => by fin_cases a <;> rfl

/-! ## The bias rows as the region finds them: the 64-vectors laid out as 1 × 64 -/

theorem bias1_entry (c : Dev nD) (k : Fin 64) :
    V m c main_v0 (ix2 (0 : Fin 1) k) = (m ((c : Thread nD τ).loc main_arg5)) (ix1 k) := by
  have e : (V m c main_v0 : S1x64.Idx → EReal) = shapeCast S1x64 (m ((c : Thread nD τ).loc main_arg5)) Facts₀.shapeCasts_S64_S1x64 := by
    show StableHlo.after hostOps0 (fun b => m (c, b)) (Proc.devRef .tc main_v0) = _
    after_results
    rfl
  rw [e]
  exact shapeCast_apply _ Facts₀.shapeCasts_S64_S1x64 (ix2 (0 : Fin 1) k) (ix1 k) (by
    rw [Shape.rowMajor_val_one, Shape.rowMajor_val_two]; show k.val = 0 * 64 + k.val; omega)

theorem bias2_entry (c : Dev nD) (k : Fin 64) :
    V m c main_v1 (ix2 (0 : Fin 1) k) = (m ((c : Thread nD τ).loc main_arg7)) (ix1 k) := by
  have e : (V m c main_v1 : S1x64.Idx → EReal) = shapeCast S1x64 (m ((c : Thread nD τ).loc main_arg7)) Facts₀.shapeCasts_S64_S1x64 := by
    show StableHlo.after hostOps0 (fun b => m (c, b)) (Proc.devRef .tc main_v1) = _
    after_results
    rfl
  rw [e]
  exact shapeCast_apply _ Facts₀.shapeCasts_S64_S1x64 (ix2 (0 : Fin 1) k) (ix1 k) (by
    rw [Shape.rowMajor_val_one, Shape.rowMajor_val_two]; show k.val = 0 * 64 + k.val; omega)

/-! ## The windows' block indices at a point, decided over the grid -/

/-- The radial features' and the output's windows are at row block `t`; every other window is the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each input block, read where the output's block says -/

theorem blk0 (c : Dev nD) (t : Fin cfg0.N) (y : S8000x64.Idx) (j : Fin 128) :
    iblk m c 0 t (ix2 (y 0) j) = (m ((c : Thread nD τ).loc main_arg0)) (ix2 ((((cfg0.win 5).blk t).view.emb y) 0) j) := by
  rw [← V_main_arg0 m c]
  show V m c main_arg0 (((cfg0.win 0).blk t).view.emb (ix2 (y 0) j)) = V m c main_arg0 (ix2 ((((cfg0.win 5).blk t).view.emb y) 0) j)
  obtain ⟨e00, e01, -, -, -, -, -, -, -, -, e50, e51⟩ := idx_facts t
  refine congrArg (V m c main_arg0) (funext fun a => Fin.ext ?_)
  match a with
  | ⟨0, _⟩ => show win0_0.index t (0 : Fin 2) * 8000 + 1 * (y 0).val = win0_5.index t (0 : Fin 2) * 8000 + 1 * (y 0).val; omega
  | ⟨1, _⟩ => show win0_0.index t (1 : Fin 2) * 128 + 1 * j.val = j.val; omega

theorem blk1 (c : Dev nD) (t : Fin cfg0.N) (j : Fin 128) (k : Fin 64) :
    iblk m c 1 t (ix2 j k) = (m ((c : Thread nD τ).loc main_arg4)) (ix2 j k) := by
  rw [← V_main_arg4 m c]
  show V m c main_arg4 (((cfg0.win 1).blk t).view.emb (ix2 j k)) = V m c main_arg4 (ix2 j k)
  obtain ⟨-, -, e10, e11, -, -, -, -, -, -, -, -⟩ := idx_facts t
  refine congrArg (V m c main_arg4) (funext fun a => Fin.ext ?_)
  match a with
  | ⟨0, _⟩ => show win0_1.index t (0 : Fin 2) * 128 + 1 * j.val = j.val; omega
  | ⟨1, _⟩ => show win0_1.index t (1 : Fin 2) * 64 + 1 * k.val = k.val; omega

theorem blk2 (c : Dev nD) (t : Fin cfg0.N) (k : Fin 64) :
    iblk m c 2 t (ix2 (0 : Fin 1) k) = (m ((c : Thread nD τ).loc main_arg5)) (ix1 k) := by
  refine Eq.trans ?_ (bias1_entry m c k)
  show V m c main_v0 (((cfg0.win 2).blk t).view.emb (ix2 (0 : Fin 1) k)) = V m c main_v0 (ix2 (0 : Fin 1) k)
  obtain ⟨-, -, -, -, e20, e21, -, -, -, -, -, -⟩ := idx_facts t
  refine congrArg (V m c main_v0) (funext fun a => Fin.ext ?_)
  match a with
  | ⟨0, _⟩ => show win0_2.index t (0 : Fin 2) * 1 + 1 * 0 = 0; omega
  | ⟨1, _⟩ => show win0_2.index t (1 : Fin 2) * 64 + 1 * k.val = k.val; omega

theorem blk3 (c : Dev nD) (t : Fin cfg0.N) (y : S8000x64.Idx) (k : Fin 64) :
    iblk m c 3 t (ix2 k (y 1)) = (m ((c : Thread nD τ).loc main_arg6)) (ix2 k ((((cfg0.win 5).blk t).view.emb y) 1)) := by
  rw [← V_main_arg6 m c]
  show V m c main_arg6 (((cfg0.win 3).blk t).view.emb (ix2 k (y 1))) = V m c main_arg6 (ix2 k ((((cfg0.win 5).blk t).view.emb y) 1))
  obtain ⟨-, -, -, -, -, -, e30, e31, -, -, e50, e51⟩ := idx_facts t
  refine congrArg (V m c main_arg6) (funext fun a => Fin.ext ?_)
  match a with
  | ⟨0, _⟩ => show win0_3.index t (0 : Fin 2) * 64 + 1 * k.val = k.val; omega
  | ⟨1, _⟩ => show win0_3.index t (1 : Fin 2) * 64 + 1 * (y 1).val = win0_5.index t (1 : Fin 2) * 64 + 1 * (y 1).val; omega

theorem blk4 (c : Dev nD) (t : Fin cfg0.N) (y : S8000x64.Idx) :
    iblk m c 4 t (ix2 (0 : Fin 1) (y 1)) = (m ((c : Thread nD τ).loc main_arg7)) (ix1 ((((cfg0.win 5).blk t).view.emb y) 1)) := by
  refine Eq.trans ?_ (bias2_entry m c ((((cfg0.win 5).blk t).view.emb y) 1))
  show V m c main_v1 (((cfg0.win 4).blk t).view.emb (ix2 (0 : Fin 1) (y 1))) = V m c main_v1 (ix2 (0 : Fin 1) ((((cfg0.win 5).blk t).view.emb y) 1))
  obtain ⟨-, -, -, -, -, -, -, -, e40, e41, e50, e51⟩ := idx_facts t
  refine congrArg (V m c main_v1) (funext fun a => Fin.ext ?_)
  match a with
  | ⟨0, _⟩ => show win0_4.index t (0 : Fin 2) * 1 + 1 * 0 = 0; omega
  | ⟨1, _⟩ => show win0_4.index t (1 : Fin 2) * 64 + 1 * (y 1).val = win0_5.index t (1 : Fin 2) * 64 + 1 * (y 1).val; omega

/-! ## What a point writes back, the cover, the array -/

/-- WHAT POINT `t` WRITES BACK is block `t` of the filter of the arguments. -/
theorem flushed_eq (c : Dev nD) (t : Fin cfg0.N) :
    (dats m 0 c).flushed 5 t = ((cfg0.win 5).blk t).view.read (Elt Ideal) (filter (m ((c : Thread nD τ).loc main_arg0)) (m ((c : Thread nD τ).loc main_arg4)) (m ((c : Thread nD τ).loc main_arg5)) (m ((c : Thread nD τ).loc main_arg6)) (m ((c : Thread nD τ).loc main_arg7))) := by
  show (cfg0.win 5).cut (grid0.coords t) ((dats m 0 c).after 5 t) = _
  rw [after0_5]
  unfold out0_5
  rw [View.canon_unit_zero hz]
  simp only [View.ld_unit_zero (S := S8000x128) hz, View.ld_unit_zero (S := S128x64) hz, View.ld_unit_zero (S := S1x64) hz, View.ld_unit_zero (S := S64x64) hz]
  funext y
  show k0_pay1 (F := Ideal) (iblk m c 0 t) (iblk m c 1 t) (iblk m c 2 t) (iblk m c 3 t) (iblk m c 4 t) y
    = (filter (m ((c : Thread nD τ).loc main_arg0)) (m ((c : Thread nD τ).loc main_arg4)) (m ((c : Thread nD τ).loc main_arg5)) (m ((c : Thread nD τ).loc main_arg6)) (m ((c : Thread nD τ).loc main_arg7))) (((cfg0.win 5).blk t).view.emb y)
  refine (Block.payload_at (iblk m c 0 t) (iblk m c 1 t) (iblk m c 2 t) (iblk m c 3 t) (iblk m c 4 t) y).trans ?_
  simp only [blk0 m c t y, blk1 m c t, blk2 m c t, blk3 m c t y, blk4 m c t y]
  rfl

/-- An edge-by-channel index is in point `t`'s block iff each coordinate is in the block's range on its axis. -/
theorem mem_blk (t : Fin cfg0.N) (i : S800000x64.Idx) :
    i ∈ ((cfg0.win 5).blk t).view.set ↔ ∀ a : Fin 2, win0_5.index t a * S8000x64.size a ≤ (i a).val ∧ (i a).val < win0_5.index t a * S8000x64.size a + S8000x64.size a := by
  show i ∈ ((View.whole main_v2).slice (win0_5.rect t)).set ↔ _
  rw [View.set_slice_whole, Rect.mem_set_unit]
  exact Iff.rfl

/-- Every index is in the block of the point its edge's row block names. -/
theorem cover (i : S800000x64.Idx) : ∃ t : Fin cfg0.N, (cfg0.win 5).flush t = true ∧ i ∈ ((cfg0.win 5).blk t).view.set := by
  have hi0 : (i 0).val < 800000 := (i 0).isLt
  have hi1 : (i 1).val < 64 := (i 1).isLt
  have hN : grid0.N = 100 := N_0
  obtain ⟨t, ht⟩ : ∃ t : Fin cfg0.N, t.val = (i 0).val / 8000 := ⟨⟨(i 0).val / 8000, by show (i 0).val / 8000 < grid0.N; omega⟩, rfl⟩
  obtain ⟨-, -, -, -, -, -, -, -, -, -, e50, e51⟩ := idx_facts t
  refine ⟨t, flush0_5 t, ?_⟩
  rw [mem_blk]
  intro a
  match a with
  | ⟨0, _⟩ => show win0_5.index t (0 : Fin 2) * 8000 ≤ (i 0).val ∧ (i 0).val < win0_5.index t (0 : Fin 2) * 8000 + 8000; omega
  | ⟨1, _⟩ => show win0_5.index t (1 : Fin 2) * 64 ≤ (i 1).val ∧ (i 1).val < win0_5.index t (1 : Fin 2) * 64 + 64; omega

/-- THE ARRAY after the region: the edge filter of the arguments. -/
theorem final (c : Dev nD) : (dats m 0 c).arrAt 5 cfg0.N = (filter (m ((c : Thread nD τ).loc main_arg0)) (m ((c : Thread nD τ).loc main_arg4)) (m ((c : Thread nD τ).loc main_arg5)) (m ((c : Thread nD τ).loc main_arg6)) (m ((c : Thread nD τ).loc main_arg7))) :=
  (dats m 0 c).arrAt_eq_of_cover 5 _ (fun t _ => flushed_eq m c t) cover

end Cert.EdgeFilter.Array

end
-- ==== Proof.Aggregate.lean ====
/-
  The message-passing step both programs end with, as ONE function of the node features `x`, the edge lists `src`,
  `dst` and the edge filter `h`:

      msg[e, ·]  =  x[src'[e], ·] · h[e, ·]          (src' is src with negative entries shifted up by the node count,
                                                      the row read being the gather's own, clamped, reading)
      out[n, ·]  =  Σ over the edges e with dst[e] = n  of  msg[e, ·]        (a scatter-add into zeros)

  Nothing below ever opens this function: the two programs apply the same operations, in the same order with the same
  dimension numbers, to their filters, so it is enough that the filters are equal.
-/
import proofs.«101522_j34093450396365_1_alg».proof.Proof.Gen.KernelIdeal
import Idealize.ShloMosaic.PureOps.Ideal

noncomputable section

namespace Cert.EdgeFilter

open Cert.KernelIdeal Idealize.ShloMosaic

/-- Gather the source nodes' features, weigh them by the filter, and sum the messages into their destination nodes. -/
def aggregate (x : FVec Ideal S50000x64 .f32) (src dst : IVec S800000 32) (h : FVec Ideal S800000x64 .f32) : FVec Ideal S50000x64 .f32 :=
  Host.scatterAdd (F := Ideal) scatter_S50000x64_S800000x1_S800000x64_1_0_0_1
    (broadcastInDim S50000x64 ![] Facts₀.bcast_S_S50000x64 (constant (F := Ideal) S_ .f32 0x00000000#32))
    (broadcastInDim S800000x1 ![0] Facts₀.bcast_S800000_S800000x1_0 dst)
    (mulf
      (Host.gather gather_S50000x64_S800000x1_S800000x64_1_0_n_n_0_1_164 x
        (broadcastInDim S800000x1 ![0] Facts₀.bcast_S800000_S800000x1_0
          (select (cmpi .slt src (broadcastInDim S800000 ![] Facts₀.bcast_S_S800000 (constantI S_ 32 0#32)))
            (addi src (broadcastInDim S800000 ![] Facts₀.bcast_S_S800000 (constantI S_ 32 50000#32)))
            src)))
      h)

end Cert.EdgeFilter

end
-- ==== Proof.KernelResult.lean ====
/-
  The kernel program's result: the message-passing step applied to the edge filter of its arguments.

  After the region the program runs fourteen host operations: they build the gather's start indices from `src`, gather
  the node features, multiply by the region's output array, and scatter-add the products into zeros along `dst`. Read
  back, that is the shared step `aggregate` applied to three arguments the region never wrote and to the region's array,
  which is `filter` of the arguments (`Array.final`).
-/
import proofs.«101522_j34093450396365_1_alg».proof.Proof.FilterArray
import proofs.«101522_j34093450396365_1_alg».proof.Proof.Aggregate

noncomputable section

namespace Cert.EdgeFilter.Kernel

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The result buffer after the operations that follow the region. -/
theorem tail_eq (c : Dev nD) :
    Pipeline.afterTail₀ cfgs (dats m) 0 (V0 m) [hostOps1] c main_v13
      = aggregate (m ((c.tc : Thread nD τ).loc main_arg1)) (m ((c.tc : Thread nD τ).loc main_arg2)) (m ((c.tc : Thread nD τ).loc main_arg3))
          (filter (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7))) := by
  have hA : Pipeline.withArrays (cfgs 0).spec c (V0 m c) (fun w => (dats m 0 c).arrAt w (cfgs 0).N) (Proc.devRef .tc main_v2)
      = filter (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) :=
    (Pipeline.withArrays_arr spec0 launch0.win.arr_inj c _ _ 5).trans (Array.final m c)
  have h1 : Pipeline.withArrays (cfgs 0).spec c (V0 m c) (fun w => (dats m 0 c).arrAt w (cfgs 0).N) (Proc.devRef .tc main_arg1)
      = m ((c.tc : Thread nD τ).loc main_arg1) :=
    (Pipeline.withArrays_of_ne _ c (V0 m c) _ main_arg1 (by exact (by decide : ∀ w, Pipeline.arrRef spec0 w ≠ main_arg1))).trans (V_main_arg1 m c)
  have h2 : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans (V_main_arg2 m c)
  have h3 : Pipeline.withArrays (cfgs 0).spec c (V0 m c) (fun w => (dats m 0 c).arrAt w (cfgs 0).N) (Proc.devRef .tc main_arg3)
      = m ((c.tc : Thread nD τ).loc main_arg3) :=
    (Pipeline.withArrays_of_ne _ c (V0 m c) _ main_arg3 (by exact (by decide : ∀ w, Pipeline.arrRef spec0 w ≠ main_arg3))).trans (V_main_arg3 m c)
  unfold Pipeline.afterTail₀
  show StableHlo.after hostOps1 _ (Proc.devRef .tc main_v13) = _
  after_results
  rw [hA, h1, h2, h3]
  rfl

/-- THE KERNEL PROGRAM'S RUN with its result named: every weakly fair execution terminates, the result buffer holds the
    message-passing step of the filter of the arguments, and the arguments end as launched. -/
theorem run : θ_run defs (onTc (τ := τ) (main (F := Ideal))) ⟨m, fun _ => 0, ρ⟩ (fun r => ∀ c : Dev nD,
      r.2.mem ((c.tc : Thread nD τ).loc main_v13) = aggregate (m ((c.tc : Thread nD τ).loc main_arg1)) (m ((c.tc : Thread nD τ).loc main_arg2)) (m ((c.tc : Thread nD τ).loc main_arg3))
          (filter (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v13 (Pipeline.mem_restRefs_of main_v13 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c),
      ((h c).1 3).trans (((dats m 0 c).arrAt_in 3 rfl _).trans ((A_eq m c 3).trans (V_main_arg6 m c))),
      ((h c).2 main_arg7 (Pipeline.mem_restRefs_of main_arg7 (by decide) (by decide))).trans (W_main_arg7 m (dats m) c)⟩)
    (run_main m ρ)

end Cert.EdgeFilter.Kernel

end
-- ==== Proof.RefFilter.lean ====
/-
  The reference computes the edge filter: its stage for `h` (the value it multiplies the gathered node features by) is
  `Cert.EdgeFilter.filter` of its arguments, index by index. The two `dot_general`s are the two sums, the bias rows are
  broadcast along the edge axis, and the operations between them — two private functions inlined — are the shifted
  softplus at each element, in the very spelling `ssp` is written in.
-/
import proofs.«101522_j34093450396365_1_alg».proof.Proof.Gen.ReferenceIdeal.Read
import proofs.«101522_j34093450396365_1_alg».proof.Proof.FilterSpec

noncomputable section

namespace Cert.EdgeFilter.Ref

open Cert.ReferenceIdeal Cert.ReferenceIdeal.Gen Cert.ReferenceIdeal.Read
open Idealize.ShloMosaic Idealize.ShloMosaic.ValueIdx
open scoped BigOperators

variable (x0 : FVec Ideal S800000x128 .f32) (x4 : FVec Ideal S128x64 .f32) (x5 : FVec Ideal S64 .f32)
  (x6 : FVec Ideal S64x64 .f32) (x7 : FVec Ideal S64 .f32)

/-! ## The generated index maps, in coordinates -/

theorem lidx_first (r : Fin 800000) (q : Fin 64) (j : Fin 128) : lidx_main_v0 (ix2 r q) j = ix2 r j :=
  funext fun a => Fin.ext (by match a with | ⟨0, _⟩ => rfl | ⟨1, _⟩ => rfl)
theorem ridx_first (r : Fin 800000) (q : Fin 64) (j : Fin 128) : ridx_main_v0 (ix2 r q) j = ix2 j q :=
  funext fun a => Fin.ext (by match a with | ⟨0, _⟩ => rfl | ⟨1, _⟩ => rfl)
theorem bias_first (r : Fin 800000) (q : Fin 64) : idx_main_v1 (idx_main_v2 (ix2 r q)) = ix1 q :=
  funext fun a => Fin.ext (by match a with | ⟨0, _⟩ => rfl)
theorem lidx_second (r : Fin 800000) (q : Fin 64) (k : Fin 64) : lidx_main_v14 (ix2 r q) k = ix2 r k :=
  funext fun a => Fin.ext (by match a with | ⟨0, _⟩ => rfl | ⟨1, _⟩ => rfl)
theorem ridx_second (r : Fin 800000) (q : Fin 64) (k : Fin 64) : ridx_main_v14 (ix2 r q) k = ix2 k q :=
  funext fun a => Fin.ext (by match a with | ⟨0, _⟩ => rfl | ⟨1, _⟩ => rfl)
theorem bias_second (r : Fin 800000) (q : Fin 64) : idx_main_v15 (idx_main_v16 (ix2 r q)) = ix1 q :=
  funext fun a => Fin.ext (by match a with | ⟨0, _⟩ => rfl)

/-! ## The three layers -/

/-- The first dense layer: `rbf @ W1 + b1` at edge `r`, channel `k`. -/
theorem dense1_apply (r : Fin 800000) (k : Fin 64) :
    val_main_v3 (F := Ideal) x0 x4 x5 (ix2 r k) = dense1 x0 x4 x5 r k := by
  rw [val_main_v3_apply, val_main_v0_apply, val_main_v2_apply, val_main_v1_apply, bias_first]
  simp only [lidx_first, ridx_first]
  rfl

/-- The activation: every element of the reference's activated array is `ssp` of the first layer's element. -/
theorem act_apply (i : S800000x64.Idx) :
    val_main_v13 (F := Ideal) x0 x4 x5 i = ssp (val_main_v3 (F := Ideal) x0 x4 x5 i) := by
  simp only [val_main_v13_apply, val_main_v7_apply, val_main_v5_apply, val_main_v4_apply, val_main_cst_apply,
    val_main_v6_apply, val_main_cst_0_apply, val_main_v12_apply, val_main_v11_apply, val_main_cst_2_apply,
    val_main_v10_apply, val_main_call0_v4_apply, val_main_call0_v3_apply, val_main_v9_apply, val_main_v8_apply,
    val_main_cst_1_apply, val_main_call0_v2_apply, val_main_call0_cst_apply, val_main_call0_v6_apply,
    val_main_call0_v5_apply, val_main_call0_v11_apply, val_main_call0_v1_apply, val_main_call0_v0_apply,
    val_main_call0_v10_apply, val_main_call0_v9_apply, val_main_call0_v8_apply, val_main_call0_v7_apply]
  rfl

/-- The reference's `h` is the filter. -/
theorem filter_eq : val_main_v17 (F := Ideal) x0 x4 x5 x6 x7 = filter x0 x4 x5 x6 x7 := by
  funext i
  obtain ⟨r, q, rfl⟩ : ∃ (r : Fin 800000) (q : Fin 64), i = ix2 r q := ⟨i 0, i 1, eq_ix2 i⟩
  rw [val_main_v17_apply, val_main_v14_apply, val_main_v16_apply, val_main_v15_apply, bias_second]
  simp only [lidx_second, ridx_second, act_apply, dense1_apply]
  rfl

end Cert.EdgeFilter.Ref

end
-- ==== Proof.RefResult.lean ====
/-
  The reference's result: the message-passing step applied to the edge filter of its arguments. Its last stage is the
  scatter-add of the gathered features times its `h`, which is the filter (`Ref.filter_eq`); the gather, the product and
  the scatter-add are the shared step `aggregate`, its dimension records being the kernel program's records field by field.
-/
import proofs.«101522_j34093450396365_1_alg».proof.Proof.RefFilter
import proofs.«101522_j34093450396365_1_alg».proof.Proof.Aggregate

noncomputable section

namespace Cert.EdgeFilter.Ref

open Cert.ReferenceIdeal Cert.ReferenceIdeal.Gen Cert.ReferenceIdeal.Read
open Idealize.ShloMosaic Idealize.ShloMosaic.TcCoe Idealize.SL.Sem

/-- The reference's last stage is the shared step over its own `h`. -/
theorem stage_eq (x0 : FVec Ideal S800000x128 .f32) (x1 : FVec Ideal S50000x64 .f32) (x2 x3 : IVec S800000 32) (x4 : FVec Ideal S128x64 .f32)
    (x5 : FVec Ideal S64 .f32) (x6 : FVec Ideal S64x64 .f32) (x7 : FVec Ideal S64 .f32) :
    val_main_v28 (F := Ideal) x0 x1 x2 x3 x4 x5 x6 x7 = aggregate x1 x2 x3 (val_main_v17 (F := Ideal) x0 x4 x5 x6 x7) := by
  unfold val_main_v28 val_main_v25
  generalize val_main_v17 (F := Ideal) x0 x4 x5 x6 x7 = h
  unfold val_main_v24 val_main_v23 val_main_v22 val_main_v21 val_main_v20 val_main_c_3 val_main_v19 val_main_v18 val_main_c
    val_main_v26 val_main_cst_4 val_main_v27 aggregate
  rfl

/-- THE REFERENCE'S RESULT, as a function of the launch memory. -/
theorem result_eq (m : (ℓ : Loc nD τ sig) → Buf (Elt Ideal) ℓ) (c : Dev nD) :
    Cert.ReferenceIdeal.Value.res_main_v28 m c
      = aggregate (m ((c.tc : Thread nD τ).loc main_arg1)) (m ((c.tc : Thread nD τ).loc main_arg2)) (m ((c.tc : Thread nD τ).loc main_arg3))
          (filter (m ((c.tc : Thread nD τ).loc main_arg0)) (m ((c.tc : Thread nD τ).loc main_arg4)) (m ((c.tc : Thread nD τ).loc main_arg5))
            (m ((c.tc : Thread nD τ).loc main_arg6)) (m ((c.tc : Thread nD τ).loc main_arg7))) := by
  rw [val_main_v28_eq, stage_eq, filter_eq]

end Cert.EdgeFilter.Ref

end
-- ==== Proof.lean ====
/-
  A continuous-filter convolution over a graph: the kernel program against its plain reference, on the extended reals.

  Both programs compute, for 800000 edges between 50000 nodes,

      h    =  ssp(rbf · W1 + b1) · W2 + b2          the edge filter: two dense layers around a shifted softplus
      out  =  segment_sum(x[src] · h, dst)          gather the source nodes' features, weigh by the filter, sum per destination

  The kernel program computes `h` in a tiled region — 100 grid points of 8000 edges, the operands of its two matrix
  products narrowed to 16 bits — and the reference with two whole matrix products. On the extended reals a narrowing is
  the identity and a matrix product into a zero accumulator is a plain sum over the contracted axis, so each block the
  region writes back is a block of ONE whole-array function, `Cert.EdgeFilter.filter` (Proof/FilterSpec.lean), and the
  blocks tile the array (Proof/BlockPayload.lean, Proof/FilterArray.lean); the reference's stage for `h` is the same
  function (Proof/RefFilter.lean). The softplus is the same expression in both, up to the kernel writing `−|y|` as
  `0 − |y|`. The operations after `h` are the same in both programs and are carried as one function,
  `Cert.EdgeFilter.aggregate` (Proof/Aggregate.lean), never opened (Proof/KernelResult.lean, Proof/RefResult.lean).
  No step uses that the inputs are finite: the two sides are the same sums of the same products, term by term.
  The idealization rewrote no operation, so `preserves` asks nothing.
-/
import proofs.«101522_j34093450396365_1_alg».proof.Defs
import proofs.«101522_j34093450396365_1_alg».proof.Proof.Gen.Kernel
import proofs.«101522_j34093450396365_1_alg».proof.Proof.Gen.Kernel.Skeleton
import proofs.«101522_j34093450396365_1_alg».proof.Proof.Gen.Kernel.Launch
import proofs.«101522_j34093450396365_1_alg».proof.Proof.Gen.Kernel.Points
import proofs.«101522_j34093450396365_1_alg».proof.Proof.Gen.Kernel.Frame
import proofs.«101522_j34093450396365_1_alg».proof.Proof.Gen.KernelIdeal
import proofs.«101522_j34093450396365_1_alg».proof.Proof.Gen.KernelIdeal.Skeleton
import proofs.«101522_j34093450396365_1_alg».proof.Proof.Gen.KernelIdeal.Launch
import proofs.«101522_j34093450396365_1_alg».proof.Proof.Gen.KernelIdeal.Points
import proofs.«101522_j34093450396365_1_alg».proof.Proof.Gen.KernelIdeal.Frame
import proofs.«101522_j34093450396365_1_alg».proof.Proof.Gen.ReferenceIdeal
import proofs.«101522_j34093450396365_1_alg».proof.Proof.Gen.Pre_finite_inputs
import proofs.«101522_j34093450396365_1_alg».proof.Proof.Gen.ReferenceIdeal.Run
import proofs.«101522_j34093450396365_1_alg».proof.Proof.Gen.ReferenceIdeal.Read
import proofs.«101522_j34093450396365_1_alg».proof.Proof.KernelResult
import proofs.«101522_j34093450396365_1_alg».proof.Proof.RefResult
import Idealize.ShloMosaic.Adequacy
import Idealize.ShloMosaic.Init

noncomputable section

namespace Cert.Proof

open Idealize.ShloMosaic Idealize.SL.Sem

/-- The three programs run, fault nowhere and leave their arguments as launched: the two kernel programs by their
    region's frame, the reference by its run with the result dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten, so there is nothing to preserve. -/
theorem preserves : Cert.preserves_Kernel_KernelIdeal := trivial

/-- From memories that agree on the arguments both programs end with the message-passing step of the edge filter of
    those arguments in their result buffers: the same term on both sides. -/
theorem algebraic : Cert.algebraic_KernelIdeal_ReferenceIdeal := by
  intro m ρ m' ρ' _ hagree
  refine ⟨_, Cert.EdgeFilter.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.EdgeFilter.Ref.result_eq m' c, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
